-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x256 : Shape := ⟨3, ![32768, 1, 256]⟩
abbrev S256x512 : Shape := ⟨2, ![256, 512]⟩
abbrev S512x512 : Shape := ⟨2, ![512, 512]⟩
abbrev S512x128 : Shape := ⟨2, ![512, 128]⟩
abbrev S3x512 : Shape := ⟨2, ![3, 512]⟩
abbrev S_ : Shape := ⟨0, ![]⟩

class Facts : Prop where
  bcast_S_S32768x1x256 : S_.BroadcastsInDim S32768x1x256 (![] : Fin 0 → Fin S32768x1x256.rank)
  reducesTo_S32768x1x256_S_d0_1_2 : S32768x1x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S3x512 : S_.BroadcastsInDim S3x512 (![] : Fin 0 → Fin S3x512.rank)
  reducesTo_S3x512_S_d0_1 : S3x512.ReducesTo [0, 1] S_

variable [Facts]

def fn_part1 {F : FTy → Type} [FloatOps F] (main_arg4 : FVec F S3x512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  main_v23

def fn {F : FTy → Type} [FloatOps F] (main_arg0 : FVec F S32768x1x256 .f32) (main_arg1 : FVec F S256x512 .f32) (main_arg2 : FVec F S512x512 .f32) (main_arg3 : FVec F S512x128 .f32) (main_arg4 : FVec F S3x512 .f32) : IVec S_ 1 :=
  let main_v0 : FVec F S32768x1x256 .f32 := Host.absf main_arg0
  let main_cst : FVec F S_ .f32 := constant S_ .f32 0x7F800000#32
  let main_v1 : FVec F S32768x1x256 .f32 := broadcastInDim S32768x1x256 ![] bcast_S_S32768x1x256 main_cst
  let main_v2 : IVec S32768x1x256 1 := cmpf .olt main_v0 main_v1
  let main_c : IVec S_ 1 := constantI S_ 1 1#1
  let main_v3 : IVec S_ 1 := (fun x v => Host.reduce IntOp.andi x v reducesTo_S32768x1x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S32768x1x256 : Shape := ⟨3, ![32768, 1, 256]⟩
abbrev S256x512 : Shape := ⟨2, ![256, 512]⟩
abbrev S512x512 : Shape := ⟨2, ![512, 512]⟩
abbrev S512x128 : Shape := ⟨2, ![512, 128]⟩
abbrev S3x512 : Shape := ⟨2, ![3, 512]⟩
abbrev S32768x256 : Shape := ⟨2, ![32768, 256]⟩
abbrev S32768x128 : Shape := ⟨2, ![32768, 128]⟩
abbrev S8192x256 : Shape := ⟨2, ![8192, 256]⟩
abbrev S8192x128 : Shape := ⟨2, ![8192, 128]⟩
abbrev S8192x512 : Shape := ⟨2, ![8192, 512]⟩
abbrev S1x512 : Shape := ⟨2, ![1, 512]⟩
abbrev S1x128 : Shape := ⟨2, ![1, 128]⟩

abbrev nBuf : Space → Nat
  | .hbm => 7
  | .vmem => 8
  | .smem => 0
  | _ => 0

abbrev bufTy : (tb : Table) → Fin (tcTables nBuf tb) → BufTy
  | .hbm, ⟨0, _⟩ => ⟨S32768x1x256, .f32⟩
  | .hbm, ⟨1, _⟩ => ⟨S256x512, .f32⟩
  | .hbm, ⟨2, _⟩ => ⟨S512x512, .f32⟩
  | .hbm, ⟨3, _⟩ => ⟨S512x128, .f32⟩
  | .hbm, ⟨4, _⟩ => ⟨S3x512, .f32⟩
  | .hbm, ⟨5, _⟩ => ⟨S32768x256, .f32⟩
  | .hbm, ⟨6, _⟩ => ⟨S32768x128, .f32⟩
  | .local _ .vmem, ⟨0, _⟩ => ⟨S8192x256, .f32⟩
  | .local _ .vmem, ⟨1, _⟩ => ⟨S8192x256, .f32⟩
  | .local _ .vmem, ⟨2, _⟩ => ⟨S256x512, .f32⟩
  | .local _ .vmem, ⟨3, _⟩ => ⟨S512x512, .f32⟩
  | .local _ .vmem, ⟨4, _⟩ => ⟨S512x128, .f32⟩
  | .local _ .vmem, ⟨5, _⟩ => ⟨S3x512, .f32⟩
  | .local _ .vmem, ⟨6, _⟩ => ⟨S8192x128, .f32⟩
  | .local _ .vmem, ⟨7, _⟩ => ⟨S8192x128, .f32⟩
  | _, _ => ⟨S32768x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32768x1x256_S32768x256 : S32768x1x256.ShapeCasts S32768x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x512_S256x512_0_0 : ∀ a, (![0, 0] : Fin 2 → Nat) a + S256x512.size a ≤ S256x512.size a
  h_S256x512 : 0 < S256x512.numel
  inb_S3x512_S1x512_0_0 : ∀ a, (![0, 0] : Fin 2 → Nat) a + S1x512.size a ≤ S3x512.size a
  h_S1x512 : 0 < S1x512.numel
  broadcasts_S1x512_S8192x512 : S1x512.Broadcasts S8192x512
  inb_S512x512_S512x512_0_0 : ∀ a, (![0, 0] : Fin 2 → Nat) a + S512x512.size a ≤ S512x512.size a
  h_S512x512 : 0 < S512x512.numel
  inb_S3x512_S1x512_1_0 : ∀ a, (![1, 0] : Fin 2 → Nat) a + S1x512.size a ≤ S3x512.size a
  inb_S512x128_S512x128_0_0 : ∀ a, (![0, 0] : Fin 2 → Nat) a + S512x128.size a ≤ S512x128.size a
  h_S512x128 : 0 < S512x128.numel
  inb_S3x512_S1x128_2_0 : ∀ a, (![2, 0] : Fin 2 → Nat) a + S1x128.size a ≤ S3x512.size a
  h_S1x128 : 0 < S1x128.numel
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  dot_S8192x256_S256x512_S8192x512_1_0_0_1_n_n_wf : DotDims.WF S8192x256 S256x512 S8192x512 [1] [0] [0] [1] [] []
  dot_S8192x512_S512x512_S8192x512_1_0_0_1_n_n_wf : DotDims.WF S8192x512 S512x512 S8192x512 [1] [0] [0] [1] [] []
  dot_S8192x512_S512x128_S8192x128_1_0_0_1_n_n_wf : DotDims.WF S8192x512 S512x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S32768x256.size a
  hwx0_0 : ∀ i : grid0.Coords, EltTy.bits .f32 = 32 ∨ (Rect.block (s := S32768x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S32768x128.size a
  hwx0_5 : ∀ i : grid0.Coords, EltTy.bits .f32 = 32 ∨ (Rect.block (s := S32768x128) S8192x128.size (cc0_transform_5 i) (hinb0_5 i)).WholeWords (EltTy.packing .f32)

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

abbrev win0_0 : Pipeline.Window sig grid0 :=
  Pipeline.Window.ofSpec (Memref.whole main_v0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x1x256 : Shape := ⟨3, ![32768, 1, 256]⟩
abbrev S256x512 : Shape := ⟨2, ![256, 512]⟩
abbrev S512x512 : Shape := ⟨2, ![512, 512]⟩
abbrev S512x128 : Shape := ⟨2, ![512, 128]⟩
abbrev S3x512 : Shape := ⟨2, ![3, 512]⟩
abbrev S32768x128 : Shape := ⟨2, ![32768, 128]⟩
abbrev S1024x1x256 : Shape := ⟨3, ![1024, 1, 256]⟩
abbrev S1024x128 : Shape := ⟨2, ![1024, 128]⟩
abbrev S1024x256 : Shape := ⟨2, ![1024, 256]⟩
abbrev S1024x512 : Shape := ⟨2, ![1024, 512]⟩
abbrev S1x512 : Shape := ⟨2, ![1, 512]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S32768x1x256, .f32⟩
  | .hbm, ⟨1, _⟩ => ⟨S256x512, .f32⟩
  | .hbm, ⟨2, _⟩ => ⟨S512x512, .f32⟩
  | .hbm, ⟨3, _⟩ => ⟨S512x128, .f32⟩
  | .hbm, ⟨4, _⟩ => ⟨S3x512, .f32⟩
  | .hbm, ⟨5, _⟩ => ⟨S32768x128, .f32⟩
  | .local _ .vmem, ⟨0, _⟩ => ⟨S1024x1x256, .f32⟩
  | .local _ .vmem, ⟨1, _⟩ => ⟨S1024x1x256, .f32⟩
  | .local _ .vmem, ⟨2, _⟩ => ⟨S256x512, .f32⟩
  | .local _ .vmem, ⟨3, _⟩ => ⟨S512x512, .f32⟩
  | .local _ .vmem, ⟨4, _⟩ => ⟨S512x128, .f32⟩
  | .local _ .vmem, ⟨5, _⟩ => ⟨S3x512, .f32⟩
  | .local _ .vmem, ⟨6, _⟩ => ⟨S1024x128, .f32⟩
  | .local _ .vmem, ⟨7, _⟩ => ⟨S1024x128, .f32⟩
  | _, _ => ⟨S32768x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x1x256_S1024x1x256_0_0_0 : ∀ a, (![0, 0, 0] : Fin 3 → Nat) a + S1024x1x256.size a ≤ S1024x1x256.size a
  h_S1024x1x256 : 0 < S1024x1x256.numel
  shapeCasts_S1024x1x256_S1024x256 : S1024x1x256.ShapeCasts S1024x256
  inb_S256x512_S256x512_0_0 : ∀ a, (![0, 0] : Fin 2 → Nat) a + S256x512.size a ≤ S256x512.size a
  h_S256x512 : 0 < S256x512.numel
  inb_S3x512_S1x512_0_0 : ∀ a, (![0, 0] : Fin 2 → Nat) a + S1x512.size a ≤ S3x512.size a
  h_S1x512 : 0 < S1x512.numel
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S3x512_S1x512_1_0 : ∀ a, (![1, 0] : Fin 2 → Nat) a + S1x512.size a ≤ S3x512.size a
  inb_S512x128_S512x128_0_0 : ∀ a, (![0, 0] : Fin 2 → Nat) a + S512x128.size a ≤ S512x128.size a
  h_S512x128 : 0 < S512x128.numel
  inb_S3x512_S1x128_2_0 : ∀ a, (![2, 0] : Fin 2 → Nat) a + S1x128.size a ≤ S3x512.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1x256.size a ≤ S32768x1x256.size a
  hwx0_0 : ∀ i : grid0.Coords, EltTy.bits .f32 = 32 ∨ (Rect.block (s := S32768x1x256) S1024x1x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .f32 = 32 ∨ (Rect.block (s := S32768x128) S1024x128.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.Mlp.lean ====
/-
  A three-layer perceptron on one row, over the extended reals, and the same computation written with whole-block
  vector operations read at one entry.

  For a row x of 256 entries, weights W1 (256 x 512), W2 (512 x 512), W3 (512 x 128) and bias rows b1, b2 (512 entries)
  and b3 (128 entries):
      h1 j = max (sum_k x k * W1 k j + b1 j) 0
      h2 j = max (sum_k h1 k * W2 k j + b2 j) 0
      out c = sum_k h2 k * W3 k c + b3 c.
  Every entry of the result depends on ONE row of the input only, so the result over any block of rows is the same
  function of the rows whatever the block's height: that is all the two tilings of the batch have to agree on. No law of
  the extended reals beyond reading each operation at an entry is used, so no finiteness of the inputs is needed.
-/
import proofs.«127707_g2000207145396142_pallasbulk_1321_10_alg».proof.Proof.LibDenseLayer

noncomputable section

open scoped BigOperators

namespace Cert.Mlp

open Idealize.ShloMosaic Idealize.ShloMosaic.ValueIdx Cert.Lib.DenseLayer

/-- The perceptron on one row: two affine layers each followed by `max · 0`, then a third affine layer. -/
def mlpRow (x : Fin 256 → EReal) (w1 : FVec Ideal ⟨2, ![256, 512]⟩ .f32) (w2 : FVec Ideal ⟨2, ![512, 512]⟩ .f32)
    (w3 : FVec Ideal ⟨2, ![512, 128]⟩ .f32) (b1 b2 : Fin 512 → EReal) (b3 : Fin 128 → EReal) (c : Fin 128) : EReal :=
  affine (fun j => max (affine (fun j => max (affine x w1 b1 j) 0) w2 b2 j) 0) w3 b3 c

/-- The whole result: row `r` of the [32768, 128] array is the perceptron of row `r` of the [32768, 1, 256] input, the
    three bias rows being rows 0, 1 and 2 of the packed [3, 512] array (of row 2 only the first 128 entries). -/
def G (X : FVec Ideal ⟨3, ![32768, 1, 256]⟩ .f32) (w1 : FVec Ideal ⟨2, ![256, 512]⟩ .f32) (w2 : FVec Ideal ⟨2, ![512, 512]⟩ .f32)
    (w3 : FVec Ideal ⟨2, ![512, 128]⟩ .f32) (b : FVec Ideal ⟨2, ![3, 512]⟩ .f32) : FVec Ideal ⟨2, ![32768, 128]⟩ .f32 :=
  fun i => mlpRow (fun k => X (ix3 (i 0 : Fin 32768) (0 : Fin 1) k)) w1 w2 w3
    (fun j => b (ix2 (0 : Fin 3) j)) (fun j => b (ix2 (1 : Fin 3) j))
    (fun j => b (ix2 (2 : Fin 3) (Fin.castLE (by decide : 128 ≤ 512) j))) (i 1 : Fin 128)

/-- `G` at the entry (r, c). -/
theorem G_apply (X : FVec Ideal ⟨3, ![32768, 1, 256]⟩ .f32) (w1 : FVec Ideal ⟨2, ![256, 512]⟩ .f32) (w2 : FVec Ideal ⟨2, ![512, 512]⟩ .f32)
    (w3 : FVec Ideal ⟨2, ![512, 128]⟩ .f32) (b : FVec Ideal ⟨2, ![3, 512]⟩ .f32) (r : Fin 32768) (c : Fin 128) :
    G X w1 w2 w3 b (ix2 r c) = mlpRow (fun k => X (ix3 r (0 : Fin 1) k)) w1 w2 w3
      (fun j => b (ix2 (0 : Fin 3) j)) (fun j => b (ix2 (1 : Fin 3) j))
      (fun j => b (ix2 (2 : Fin 3) (Fin.castLE (by decide : 128 ≤ 512) j))) c := rfl

/-- The perceptron written with whole-block vector operations over a block of `R` rows, read at the entry (p, q), is
    the perceptron of row `p` of the block: nothing of it depends on `R` or on the other rows. -/
theorem body_apply {R : Nat}
    (x : FVec Ideal ⟨2, ![R, 256]⟩ .f32) (w1 : FVec Ideal ⟨2, ![256, 512]⟩ .f32) (w2 : FVec Ideal ⟨2, ![512, 512]⟩ .f32)
    (w3 : FVec Ideal ⟨2, ![512, 128]⟩ .f32) (b1 b2 : FVec Ideal ⟨2, ![1, 512]⟩ .f32) (b3 : FVec Ideal ⟨2, ![1, 128]⟩ .f32)
    (D1 : DotDims ⟨2, ![R, 256]⟩ ⟨2, ![256, 512]⟩ ⟨2, ![R, 512]⟩) (h1 : D1 = DotDims.plain R 256 512)
    (D2 : DotDims ⟨2, ![R, 512]⟩ ⟨2, ![512, 512]⟩ ⟨2, ![R, 512]⟩) (h2 : D2 = DotDims.plain R 512 512)
    (D3 : DotDims ⟨2, ![R, 512]⟩ ⟨2, ![512, 128]⟩ ⟨2, ![R, 128]⟩) (h3 : D3 = DotDims.plain R 512 128)
    (hb : (⟨2, ![1, 512]⟩ : Shape).Broadcasts ⟨2, ![R, 512]⟩) (hb' : (⟨2, ![1, 128]⟩ : Shape).Broadcasts ⟨2, ![R, 128]⟩)
    (p : Fin R) (q : Fin 128) :
    addf (matmul D3 none
        (maximumf (addf (matmul D2 none
            (maximumf (addf (matmul D1 none x w1 (constant ⟨2, ![R, 512]⟩ .f32 0x00000000#32)) (broadcastTo ⟨2, ![R, 512]⟩ b1 hb))
              (broadcast ⟨2, ![R, 512]⟩ (Scalar.ofBits (F := Ideal) .f32 0x00000000#32)))
            w2 (constant ⟨2, ![R, 512]⟩ .f32 0x00000000#32)) (broadcastTo ⟨2, ![R, 512]⟩ b2 hb))
          (broadcast ⟨2, ![R, 512]⟩ (Scalar.ofBits (F := Ideal) .f32 0x00000000#32)))
        w3 (constant ⟨2, ![R, 128]⟩ .f32 0x00000000#32)) (broadcastTo ⟨2, ![R, 128]⟩ b3 hb') (ix2 p q)
      = mlpRow (fun k => x (ix2 p k)) w1 w2 w3 (fun j => b1 (ix2 (0 : Fin 1) j)) (fun j => b2 (ix2 (0 : Fin 1) j))
          (fun j => b3 (ix2 (0 : Fin 1) j)) q := by
  refine (layer_apply D3 h3 none _ w3 b3 hb' p q).trans ?_
  unfold mlpRow
  refine congrArg (fun f => affine f w3 (fun j => b3 (ix2 (0 : Fin 1) j)) q) (funext fun k => ?_)
  refine (relu_apply _ (ix2 p k)).trans (congrArg (max · 0) ?_)
  refine (layer_apply D2 h2 none _ w2 b2 hb p k).trans ?_
  refine congrArg (fun f => affine f w2 (fun j => b2 (ix2 (0 : Fin 1) j)) k) (funext fun k' => ?_)
  refine (relu_apply _ (ix2 p k')).trans (congrArg (max · 0) ?_)
  exact layer_apply D1 h1 none x w1 b1 hb p k'

end Cert.Mlp

end
-- ==== Proof.KernelValue.lean ====
/-
  What the kernel's result array holds after its run at the ideal values: row r of the [32768, 128] array is the
  three-layer perceptron (Proof/Mlp.lean) of row r of the input.

  The launch cuts the batch into 4 blocks of 8192 rows. The input the blocks are cut from is the [32768, 256] array a
  host reshape makes of the [32768, 1, 256] argument, so its entry (r, k) is the argument's entry (r, 0, k). At grid
  point t the body reads rows 8192 t .. 8192 t + 8191 of it, the three weight matrices whole and the packed bias array
  whole, and writes rows 8192 t .. 8192 t + 8191 of the result: entry (p, q) of the block it writes is the perceptron of
  row p of the block it read, which is row 8192 t + p of the input. The four blocks tile the result array.
-/
import proofs.«127707_g2000207145396142_pallasbulk_1321_10_alg».proof.Proof.Gen.KernelIdeal.Value
import proofs.«127707_g2000207145396142_pallasbulk_1321_10_alg».proof.Proof.Mlp
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The body's stored value at the entry (p, q) of the block: the perceptron of row `p` of the loaded block of rows,
    with the loaded weights and the three loaded bias rows. -/
theorem pay_apply (v0 : Vec Ideal S8192x256 .f32) (v2 : Vec Ideal S256x512 .f32) (v4 : Vec Ideal S1x512 .f32)
    (v9 : Vec Ideal S512x512 .f32) (v11 : Vec Ideal S1x512 .f32) (v16 : Vec Ideal S512x128 .f32) (v18 : Vec Ideal S1x128 .f32)
    (p : Fin 8192) (q : Fin 128) :
    k0_pay1 (F := Ideal) v0 v2 v4 v9 v11 v16 v18 (ix2 p q)
      = Cert.Mlp.mlpRow (fun k => v0 (ix2 p k)) v2 v9 v16 (fun j => v4 (ix2 (0 : Fin 1) j)) (fun j => v11 (ix2 (0 : Fin 1) j))
          (fun j => v18 (ix2 (0 : Fin 1) j)) q := by
  unfold k0_pay1
  rw [shapeCast_self]
  exact Cert.Mlp.body_apply v0 v2 v9 v16 v4 v11 v18 _ rfl _ rfl _ rfl _ _ p q

/-- What the body leaves in the output's staging buffer at the entry (p, q), whatever the input buffers hold: the
    perceptron of row `p` of the first buffer, the bias rows being rows 0, 1, 2 of the packed bias buffer. -/
theorem out_apply (x0 : Vec Ideal S8192x256 .f32) (x1 : Vec Ideal S256x512 .f32) (x2 : Vec Ideal S512x512 .f32)
    (x3 : Vec Ideal S512x128 .f32) (x4 : Vec Ideal S3x512 .f32) (p : Fin 8192) (q : Fin 128) :
    out0_5 (F := Ideal) x0 x1 x2 x3 x4 (ix2 p q)
      = Cert.Mlp.mlpRow (fun k => x0 (ix2 p k)) x1 x2 x3 (fun j => x4 (ix2 (0 : Fin 3) j)) (fun j => x4 (ix2 (1 : Fin 3) j))
          (fun j => x4 (ix2 (2 : Fin 3) (Fin.castLE (by decide : 128 ≤ 512) j))) q := by
  unfold out0_5
  rw [View.canon_unit_zero hz, pay_apply]
  simp only [View.ld_unit_zero (S := S256x512) hz, View.ld_unit_zero (S := S512x512) hz, View.ld_unit_zero (S := S512x128) hz]
  have e0 : ∀ j : Fin 512, View.ld x4 r0_2 (ix2 (0 : Fin 1) j) = x4 (ix2 (0 : Fin 3) j) := fun j =>
    congrArg x4 (funext fun a => Fin.ext (by
      match a with
      | ⟨0, _⟩ => rfl
      | ⟨1, _⟩ => show 0 + 1 * j.val = j.val; omega))
  have e1 : ∀ j : Fin 512, View.ld x4 r0_4 (ix2 (0 : Fin 1) j) = x4 (ix2 (1 : Fin 3) j) := fun j =>
    congrArg x4 (funext fun a => Fin.ext (by
      match a with
      | ⟨0, _⟩ => rfl
      | ⟨1, _⟩ => show 0 + 1 * j.val = j.val; omega))
  have e2 : ∀ j : Fin 128, View.ld x4 r0_6 (ix2 (0 : Fin 1) j) = x4 (ix2 (2 : Fin 3) (Fin.castLE (by decide : 128 ≤ 512) j)) := fun j =>
    congrArg x4 (funext fun a => Fin.ext (by
      match a with
      | ⟨0, _⟩ => rfl
      | ⟨1, _⟩ => show 0 + 1 * j.val = j.val; omega))
  simp only [e0, e1, e2]
  refine congrArg (fun f => Cert.Mlp.mlpRow f _ _ _ _ _ _ _) (funext fun k => ?_)
  exact congrFun (View.ld_unit_zero (S := S8192x256) hz _ x0) _

/-- The same at any entry `y` of the block. -/
theorem out_apply' (x0 : Vec Ideal S8192x256 .f32) (x1 : Vec Ideal S256x512 .f32) (x2 : Vec Ideal S512x512 .f32)
    (x3 : Vec Ideal S512x128 .f32) (x4 : Vec Ideal S3x512 .f32) (y : S8192x128.Idx) :
    out0_5 (F := Ideal) x0 x1 x2 x3 x4 y
      = Cert.Mlp.mlpRow (fun k => x0 (ix2 (y 0 : Fin 8192) k)) x1 x2 x3 (fun j => x4 (ix2 (0 : Fin 3) j)) (fun j => x4 (ix2 (1 : Fin 3) j))
          (fun j => x4 (ix2 (2 : Fin 3) (Fin.castLE (by decide : 128 ≤ 512) j))) (y 1 : Fin 128) := by
  obtain ⟨p, q, rfl⟩ : ∃ (p : Fin 8192) (q : Fin 128), y = ix2 p q := ⟨y 0, y 1, eq_ix2 y⟩
  exact out_apply x0 x1 x2 x3 x4 p q

/-- The block indices over the grid: the input rows' block moves with the output's along the batch, every other block
    index is zero, and the output's block index along the batch is at most 3. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 3 ∧ win0_5.index t (1 : Fin 2) = 0 :=
  (by decide +kernel : ∀ t : Fin grid0.N, _)

/-- Every block of rows of the result is some grid point's. -/
theorem idx_onto : ∀ q0 : Fin 4, ∃ t : Fin cfg0.N, win0_5.index t = ![q0.val, 0] :=
  (by decide +kernel : ∀ q0 : Fin 4, ∃ t : Fin grid0.N, win0_5.index t = ![q0.val, 0])

/-- The array the input blocks are cut from is the host's reshape of the argument. -/
theorem V_v0 (c : Dev nD) : (V m c main_v0 : S32768x256.Idx → EReal)
    = shapeCast S32768x256 (m ((c : Thread nD τ).loc main_arg0)) Facts₀.shapeCasts_S32768x1x256_S32768x256 := by
  dsimp only [V, hostOps0]; after_results; rfl

/-- Entry (p, k) of the input block at point `t` is the argument's entry (r, 0, k), `r` the block's row `p` in the array. -/
theorem iblk0_apply (c : Dev nD) (t : Fin cfg0.N) (p : Fin 8192) (k : Fin 256) (r : Fin 32768)
    (hr : r.val = win0_5.index t (0 : Fin 2) * 8192 + p.val) :
    (iblk m c 0 t : Vec Ideal S8192x256 .f32) (ix2 p k)
      = (m ((c : Thread nD τ).loc main_arg0) : S32768x1x256.Idx → EReal) (ix3 r (0 : Fin 1) k) := by
  obtain ⟨e0, e1, -⟩ := idx_facts t
  show V m c main_v0 (((cfg0.win 0).blk t).view.emb (ix2 p k)) = _
  rw [V_v0 m c]
  refine shapeCast_apply (s := S32768x1x256) (t := S32768x256) _ _ _ (ix3 r (0 : Fin 1) k) ?_
  rw [Shape.rowMajor_val_three, Shape.rowMajor_val_two]
  show (r.val * 1 + 0) * 256 + k.val
    = (win0_0.index t (0 : Fin 2) * 8192 + 1 * p.val) * 256 + (win0_0.index t (1 : Fin 2) * 256 + 1 * k.val)
  rw [e0, e1, hr]; omega

/-- The first weight matrix's block at every point is the whole argument. -/
theorem iblk1 (c : Dev nD) (t : Fin cfg0.N) : (iblk m c 1 t : Vec Ideal S256x512 .f32) = m ((c : Thread nD τ).loc main_arg1) := by
  obtain ⟨-, -, e0, e1, -⟩ := idx_facts t
  funext j
  show V m c main_arg1 (((cfg0.win 1).blk t).view.emb j) = m ((c : Thread nD τ).loc main_arg1) j
  rw [V_main_arg1]
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 512 + 1 * (j 1).val = (j 1).val; omega

/-- The second weight matrix's block at every point is the whole argument. -/
theorem iblk2 (c : Dev nD) (t : Fin cfg0.N) : (iblk m c 2 t : Vec Ideal S512x512 .f32) = m ((c : Thread nD τ).loc main_arg2) := by
  obtain ⟨-, -, -, -, e0, e1, -⟩ := idx_facts t
  funext j
  show V m c main_arg2 (((cfg0.win 2).blk t).view.emb j) = m ((c : Thread nD τ).loc main_arg2) j
  rw [V_main_arg2]
  refine congrArg _ (funext fun a => Fin.ext ?_)
  match a with
  | ⟨0, _⟩ => show win0_2.index t (0 : Fin 2) * 512 + 1 * (j 0).val = (j 0).val; omega
  | ⟨1, _⟩ => show win0_2.index t (1 : Fin 2) * 512 + 1 * (j 1).val = (j 1).val; omega

/-- The third weight matrix's block at every point is the whole argument. -/
theorem iblk3 (c : Dev nD) (t : Fin cfg0.N) : (iblk m c 3 t : Vec Ideal S512x128 .f32) = m ((c : Thread nD τ).loc main_arg3) := by
  obtain ⟨-, -, -, -, -, -, e0, e1, -⟩ := idx_facts t
  funext j
  show V m c main_arg3 (((cfg0.win 3).blk t).view.emb j) = m ((c : Thread nD τ).loc main_arg3) j
  rw [V_main_arg3]
  refine congrArg _ (funext fun a => Fin.ext ?_)
  match a with
  | ⟨0, _⟩ => show win0_3.index t (0 : Fin 2) * 512 + 1 * (j 0).val = (j 0).val; omega
  | ⟨1, _⟩ => show win0_3.index t (1 : Fin 2) * 128 + 1 * (j 1).val = (j 1).val; omega

/-- The packed bias array's block at every point is the whole argument. -/
theorem iblk4 (c : Dev nD) (t : Fin cfg0.N) : (iblk m c 4 t : Vec Ideal S3x512 .f32) = m ((c : Thread nD τ).loc main_arg4) := by
  obtain ⟨-, -, -, -, -, -, -, -, e0, e1, -⟩ := idx_facts t
  funext j
  show V m c main_arg4 (((cfg0.win 4).blk t).view.emb j) = m ((c : Thread nD τ).loc main_arg4) j
  rw [V_main_arg4]
  refine congrArg _ (funext fun a => Fin.ext ?_)
  match a with
  | ⟨0, _⟩ => show win0_4.index t (0 : Fin 2) * 3 + 1 * (j 0).val = (j 0).val; omega
  | ⟨1, _⟩ => show win0_4.index t (1 : Fin 2) * 512 + 1 * (j 1).val = (j 1).val; omega

/-- The result array of the perceptron over the launch memory's arguments on core `c`. -/
abbrev result (c : Dev nD) : FVec Ideal ⟨2, ![32768, 128]⟩ .f32 :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the result. -/
theorem flushed_eq (c : Dev nD) (t : Fin cfg0.N) :
    (dats m 0 c).flushed 5 t = ((cfg0.win 5).blk t).view.read (Elt Ideal) (result m c) := by
  rw [flushed5]
  funext j
  obtain ⟨-, -, -, -, -, -, -, -, -, -, e5, e6⟩ := idx_facts t
  have hj0 : (j 0).val < 8192 := (j 0).isLt
  have hj1 : (j 1).val < 128 := (j 1).isLt
  show out0_5 (iblk m c 0 t) (iblk m c 1 t) (iblk m c 2 t) (iblk m c 3 t) (iblk m c 4 t) j
    = Cert.Mlp.G _ _ _ _ _ (((cfg0.win 5).blk t).view.emb j)
  refine (out_apply' _ _ _ _ _ j).trans ?_
  rw [iblk1, iblk2, iblk3, iblk4]
  unfold Cert.Mlp.G
  have hc : (j 1 : Fin 128) = ((((cfg0.win 5).blk t).view.emb j) 1 : Fin 128) := Fin.ext (by
    show (j 1).val = win0_5.index t (1 : Fin 2) * 128 + 1 * (j 1).val
    rw [e6]; omega)
  rw [← hc]
  refine congrArg (fun f => Cert.Mlp.mlpRow f _ _ _ _ _ _ _) (funext fun k => ?_)
  exact iblk0_apply m c t (j 0) k _ (by
    show win0_5.index t (0 : Fin 2) * 8192 + 1 * (j 0).val = win0_5.index t (0 : Fin 2) * 8192 + (j 0).val
    omega)

/-- An index of the result array is in point `t`'s block iff each coordinate is in the block's range on its axis. -/
theorem mem_blk (t : Fin cfg0.N) (i : S32768x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v1).slice (win0_5.rect t)).set ↔ _
  rw [View.set_slice_whole, Rect.mem_set_unit]
  exact Iff.rfl

/-- The four blocks of rows cover the result array: row `r` is in block `r / 8192`. -/
theorem cover (i : S32768x128.Idx) :
    ∃ t : Fin cfg0.N, (cfg0.win 5).flush t = true ∧ i ∈ ((cfg0.win 5).blk t).view.set := by
  have hi0 : (i 0).val < 32768 := (i 0).isLt
  have hi1 : (i 1).val < 128 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 8192 ≤ (i 0).val ∧ (i 0).val < win0_5.index t (0 : Fin 2) * 8192 + 8192
    omega
  | ⟨1, _⟩ =>
    show win0_5.index t (1 : Fin 2) * 128 ≤ (i 1).val ∧ (i 1).val < win0_5.index t (1 : Fin 2) * 128 + 128
    omega

/-- So the result array ends holding the perceptron of every row. -/
theorem final (c : Dev nD) : (dats m 0 c).arrAt 5 cfg0.N = result m c :=
  (dats m 0 c).arrAt_eq_of_cover 5 (result m c) (fun t _ => flushed_eq m c t) cover

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.ReferenceValue.lean ====
/-
  What the reference's result array holds after its run at the ideal values: row r of the [32768, 128] array is the
  three-layer perceptron (Proof/Mlp.lean) of row r of the input.

  The reference launches the same body over 32 blocks of 1024 rows, cut straight from the [32768, 1, 256] argument: the
  block at grid point t is rows 1024 t .. 1024 t + 1023 with the unit middle axis kept, and the body drops that axis by a
  shape cast, so entry (p, k) of what it multiplies is the block's entry (p, 0, k). At point t it writes rows
  1024 t .. 1024 t + 1023 of the result: entry (p, q) of the block is the perceptron of row 1024 t + p of the input. The
  32 blocks tile the result array.
-/
import proofs.«127707_g2000207145396142_pallasbulk_1321_10_alg».proof.Proof.Gen.ReferenceIdeal.Value
import proofs.«127707_g2000207145396142_pallasbulk_1321_10_alg».proof.Proof.Mlp
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Value

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The body's stored value at the entry (p, q) of the block: the perceptron of row `p` of the loaded block of rows,
    with the loaded weights and the three loaded bias rows. -/
theorem pay_apply (v0 : Vec Ideal S1024x1x256 .f32) (v2 : Vec Ideal S256x512 .f32) (v4 : Vec Ideal S1x512 .f32)
    (v9 : Vec Ideal S512x512 .f32) (v11 : Vec Ideal S1x512 .f32) (v16 : Vec Ideal S512x128 .f32) (v18 : Vec Ideal S1x128 .f32)
    (p : Fin 1024) (q : Fin 128) :
    k0_pay1 (F := Ideal) v0 v2 v4 v9 v11 v16 v18 (ix2 p q)
      = Cert.Mlp.mlpRow (fun k => v0 (ix3 p (0 : Fin 1) k)) v2 v9 v16 (fun j => v4 (ix2 (0 : Fin 1) j)) (fun j => v11 (ix2 (0 : Fin 1) j))
          (fun j => v18 (ix2 (0 : Fin 1) j)) q := by
  unfold k0_pay1
  refine (Cert.Mlp.body_apply (shapeCast S1024x256 v0 Facts₀.shapeCasts_S1024x1x256_S1024x256) v2 v9 v16 v4 v11 v18
    _ rfl _ rfl _ rfl _ _ p q).trans ?_
  refine congrArg (fun f => Cert.Mlp.mlpRow f _ _ _ _ _ _ _) (funext fun k => ?_)
  exact Cert.Lib.DenseLayer.shapeCast_a1b_ab_apply v0 _ p k

/-- What the body leaves in the output's staging buffer at the entry (p, q), whatever the input buffers hold: the
    perceptron of row `p` of the first buffer, the bias rows being rows 0, 1, 2 of the packed bias buffer. -/
theorem out_apply (x0 : Vec Ideal S1024x1x256 .f32) (x1 : Vec Ideal S256x512 .f32) (x2 : Vec Ideal S512x512 .f32)
    (x3 : Vec Ideal S512x128 .f32) (x4 : Vec Ideal S3x512 .f32) (p : Fin 1024) (q : Fin 128) :
    out0_5 (F := Ideal) x0 x1 x2 x3 x4 (ix2 p q)
      = Cert.Mlp.mlpRow (fun k => x0 (ix3 p (0 : Fin 1) k)) x1 x2 x3 (fun j => x4 (ix2 (0 : Fin 3) j)) (fun j => x4 (ix2 (1 : Fin 3) j))
          (fun j => x4 (ix2 (2 : Fin 3) (Fin.castLE (by decide : 128 ≤ 512) j))) q := by
  unfold out0_5
  rw [View.canon_unit_zero hz, pay_apply]
  simp only [View.ld_unit_zero (S := S256x512) hz, View.ld_unit_zero (S := S512x512) hz, View.ld_unit_zero (S := S512x128) hz]
  have e0 : ∀ j : Fin 512, View.ld x4 r0_2 (ix2 (0 : Fin 1) j) = x4 (ix2 (0 : Fin 3) j) := fun j =>
    congrArg x4 (funext fun a => Fin.ext (by
      match a with
      | ⟨0, _⟩ => rfl
      | ⟨1, _⟩ => show 0 + 1 * j.val = j.val; omega))
  have e1 : ∀ j : Fin 512, View.ld x4 r0_4 (ix2 (0 : Fin 1) j) = x4 (ix2 (1 : Fin 3) j) := fun j =>
    congrArg x4 (funext fun a => Fin.ext (by
      match a with
      | ⟨0, _⟩ => rfl
      | ⟨1, _⟩ => show 0 + 1 * j.val = j.val; omega))
  have e2 : ∀ j : Fin 128, View.ld x4 r0_6 (ix2 (0 : Fin 1) j) = x4 (ix2 (2 : Fin 3) (Fin.castLE (by decide : 128 ≤ 512) j)) := fun j =>
    congrArg x4 (funext fun a => Fin.ext (by
      match a with
      | ⟨0, _⟩ => rfl
      | ⟨1, _⟩ => show 0 + 1 * j.val = j.val; omega))
  simp only [e0, e1, e2]
  refine congrArg (fun f => Cert.Mlp.mlpRow f _ _ _ _ _ _ _) (funext fun k => ?_)
  exact congrFun (View.ld_unit_zero (S := S1024x1x256) hz3 _ x0) _

/-- The same at any entry `y` of the block. -/
theorem out_apply' (x0 : Vec Ideal S1024x1x256 .f32) (x1 : Vec Ideal S256x512 .f32) (x2 : Vec Ideal S512x512 .f32)
    (x3 : Vec Ideal S512x128 .f32) (x4 : Vec Ideal S3x512 .f32) (y : S1024x128.Idx) :
    out0_5 (F := Ideal) x0 x1 x2 x3 x4 y
      = Cert.Mlp.mlpRow (fun k => x0 (ix3 (y 0 : Fin 1024) (0 : Fin 1) k)) x1 x2 x3 (fun j => x4 (ix2 (0 : Fin 3) j)) (fun j => x4 (ix2 (1 : Fin 3) j))
          (fun j => x4 (ix2 (2 : Fin 3) (Fin.castLE (by decide : 128 ≤ 512) j))) (y 1 : Fin 128) := by
  obtain ⟨p, q, rfl⟩ : ∃ (p : Fin 1024) (q : Fin 128), y = ix2 p q := ⟨y 0, y 1, eq_ix2 y⟩
  exact out_apply x0 x1 x2 x3 x4 p q

/-- The block indices over the grid: the input rows' block moves with the output's along the batch, every other block
    index is zero, and the output's block index along the batch is at most 31. -/
theorem idx_facts : ∀ t : Fin cfg0.N, win0_0.index t (0 : Fin 3) = win0_5.index t (0 : Fin 2)
    ∧ (win0_0.index t (1 : Fin 3) = 0 ∧ win0_0.index t (2 : Fin 3) = 0)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 31 ∧ win0_5.index t (1 : Fin 2) = 0 :=
  (by decide +kernel : ∀ t : Fin grid0.N, _)

/-- Every block of rows of the result is some grid point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-- Entry (p, 0, k) of the input block at point `t` is the argument's entry (r, 0, k), `r` the block's row `p` in the array. -/
theorem iblk0_apply (c : Dev nD) (t : Fin cfg0.N) (p : Fin 1024) (k : Fin 256) (r : Fin 32768)
    (hr : r.val = win0_5.index t (0 : Fin 2) * 1024 + p.val) :
    (iblk m c 0 t : Vec Ideal S1024x1x256 .f32) (ix3 p (0 : Fin 1) k)
      = (m ((c : Thread nD τ).loc main_arg0) : S32768x1x256.Idx → EReal) (ix3 r (0 : Fin 1) k) := by
  obtain ⟨e0, ⟨e1, e2⟩, -⟩ := idx_facts t
  show m ((c : Thread nD τ).loc main_arg0) (((cfg0.win 0).blk t).view.emb (ix3 p (0 : Fin 1) k)) = _
  refine congrArg _ (funext fun a => Fin.ext ?_)
  match a with
  | ⟨0, _⟩ => show win0_0.index t (0 : Fin 3) * 1024 + 1 * p.val = r.val; rw [e0, hr]; omega
  | ⟨1, _⟩ => show win0_0.index t (1 : Fin 3) * 1 + 1 * 0 = 0; rw [e1]
  | ⟨2, _⟩ => show win0_0.index t (2 : Fin 3) * 256 + 1 * k.val = k.val; rw [e2]; omega

/-- The first weight matrix's block at every point is the whole argument. -/
theorem iblk1 (c : Dev nD) (t : Fin cfg0.N) : (iblk m c 1 t : Vec Ideal S256x512 .f32) = m ((c : Thread nD τ).loc main_arg1) := by
  obtain ⟨-, -, e0, e1, -⟩ := idx_facts t
  funext j
  show V m c main_arg1 (((cfg0.win 1).blk t).view.emb j) = m ((c : Thread nD τ).loc main_arg1) j
  rw [V_main_arg1]
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 512 + 1 * (j 1).val = (j 1).val; omega

/-- The second weight matrix's block at every point is the whole argument. -/
theorem iblk2 (c : Dev nD) (t : Fin cfg0.N) : (iblk m c 2 t : Vec Ideal S512x512 .f32) = m ((c : Thread nD τ).loc main_arg2) := by
  obtain ⟨-, -, -, -, e0, e1, -⟩ := idx_facts t
  funext j
  show V m c main_arg2 (((cfg0.win 2).blk t).view.emb j) = m ((c : Thread nD τ).loc main_arg2) j
  rw [V_main_arg2]
  refine congrArg _ (funext fun a => Fin.ext ?_)
  match a with
  | ⟨0, _⟩ => show win0_2.index t (0 : Fin 2) * 512 + 1 * (j 0).val = (j 0).val; omega
  | ⟨1, _⟩ => show win0_2.index t (1 : Fin 2) * 512 + 1 * (j 1).val = (j 1).val; omega

/-- The third weight matrix's block at every point is the whole argument. -/
theorem iblk3 (c : Dev nD) (t : Fin cfg0.N) : (iblk m c 3 t : Vec Ideal S512x128 .f32) = m ((c : Thread nD τ).loc main_arg3) := by
  obtain ⟨-, -, -, -, -, -, e0, e1, -⟩ := idx_facts t
  funext j
  show V m c main_arg3 (((cfg0.win 3).blk t).view.emb j) = m ((c : Thread nD τ).loc main_arg3) j
  rw [V_main_arg3]
  refine congrArg _ (funext fun a => Fin.ext ?_)
  match a with
  | ⟨0, _⟩ => show win0_3.index t (0 : Fin 2) * 512 + 1 * (j 0).val = (j 0).val; omega
  | ⟨1, _⟩ => show win0_3.index t (1 : Fin 2) * 128 + 1 * (j 1).val = (j 1).val; omega

/-- The packed bias array's block at every point is the whole argument. -/
theorem iblk4 (c : Dev nD) (t : Fin cfg0.N) : (iblk m c 4 t : Vec Ideal S3x512 .f32) = m ((c : Thread nD τ).loc main_arg4) := by
  obtain ⟨-, -, -, -, -, -, -, -, e0, e1, -⟩ := idx_facts t
  funext j
  show V m c main_arg4 (((cfg0.win 4).blk t).view.emb j) = m ((c : Thread nD τ).loc main_arg4) j
  rw [V_main_arg4]
  refine congrArg _ (funext fun a => Fin.ext ?_)
  match a with
  | ⟨0, _⟩ => show win0_4.index t (0 : Fin 2) * 3 + 1 * (j 0).val = (j 0).val; omega
  | ⟨1, _⟩ => show win0_4.index t (1 : Fin 2) * 512 + 1 * (j 1).val = (j 1).val; omega

/-- The result array of the perceptron over the launch memory's arguments on core `c`. -/
abbrev result (c : Dev nD) : FVec Ideal ⟨2, ![32768, 128]⟩ .f32 :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the result. -/
theorem flushed_eq (c : Dev nD) (t : Fin cfg0.N) :
    (dats m 0 c).flushed 5 t = ((cfg0.win 5).blk t).view.read (Elt Ideal) (result m c) := by
  rw [flushed5]
  funext j
  obtain ⟨-, -, -, -, -, -, -, -, -, -, e5, e6⟩ := idx_facts t
  have hj0 : (j 0).val < 1024 := (j 0).isLt
  have hj1 : (j 1).val < 128 := (j 1).isLt
  show out0_5 (iblk m c 0 t) (iblk m c 1 t) (iblk m c 2 t) (iblk m c 3 t) (iblk m c 4 t) j
    = Cert.Mlp.G _ _ _ _ _ (((cfg0.win 5).blk t).view.emb j)
  refine (out_apply' _ _ _ _ _ j).trans ?_
  rw [iblk1, iblk2, iblk3, iblk4]
  unfold Cert.Mlp.G
  have hc : (j 1 : Fin 128) = ((((cfg0.win 5).blk t).view.emb j) 1 : Fin 128) := Fin.ext (by
    show (j 1).val = win0_5.index t (1 : Fin 2) * 128 + 1 * (j 1).val
    rw [e6]; omega)
  rw [← hc]
  refine congrArg (fun f => Cert.Mlp.mlpRow f _ _ _ _ _ _ _) (funext fun k => ?_)
  exact iblk0_apply m c t (j 0) k _ (by
    show win0_5.index t (0 : Fin 2) * 1024 + 1 * (j 0).val = win0_5.index t (0 : Fin 2) * 1024 + (j 0).val
    omega)

/-- An index of the result array is in point `t`'s block iff each coordinate is in the block's range on its axis. -/
theorem mem_blk (t : Fin cfg0.N) (i : S32768x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v0).slice (win0_5.rect t)).set ↔ _
  rw [View.set_slice_whole, Rect.mem_set_unit]
  exact Iff.rfl

/-- The 32 blocks of rows cover the result array: row `r` is in block `r / 1024`. -/
theorem cover (i : S32768x128.Idx) :
    ∃ t : Fin cfg0.N, (cfg0.win 5).flush t = true ∧ i ∈ ((cfg0.win 5).blk t).view.set := by
  have hi0 : (i 0).val < 32768 := (i 0).isLt
  have hi1 : (i 1).val < 128 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 128 ≤ (i 1).val ∧ (i 1).val < win0_5.index t (1 : Fin 2) * 128 + 128
    omega

/-- So the result array ends holding the perceptron of every row. -/
theorem final (c : Dev nD) : (dats m 0 c).arrAt 5 cfg0.N = result m c :=
  (dats m 0 c).arrAt_eq_of_cover 5 (result m c) (fun t _ => flushed_eq m c t) cover

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.ReferenceIdeal.Hand

end
-- ==== Proof.lean ====
/-
  The certificate of a fused three-layer perceptron  a = relu(relu(x W1 + b1) W2 + b2) W3 + b3  over 32768 rows against
  the same perceptron launched with another tiling of the batch.

  Both programs run ONE body: three matrix products, each into a zero accumulator and followed by the addition of a bias
  row laid along every row, the first two also by a maximum with zero. One program squeezes the unit middle axis of the
  [32768, 1, 256] input on the host and cuts the batch into 4 blocks of 8192 rows; the other cuts 32 blocks of 1024 rows
  from the input as it is and drops the unit axis inside the body. At the ideal values a matrix product read at an entry is
  the plain sum of products over the contracted coordinate, so every entry (r, c) of either result is the same function of
  row r of the input, the weights and the biases (Proof/Mlp.lean, `mlpRow`): the result does not see the block height. Each
  program's blocks tile the result array (Proof/KernelValue.lean, Proof/ReferenceValue.lean), so both result arrays are the
  one array `Mlp.G` of the arguments, entry by entry on the extended reals. No algebraic law is used beyond reading each
  operation at an entry, so the precondition (finite inputs) is never opened.

  The three frames are the generated ones; the idealization rewrote no operation, so `preserves` is `True`.
-/
import proofs.«127707_g2000207145396142_pallasbulk_1321_10_alg».proof.Defs
import proofs.«127707_g2000207145396142_pallasbulk_1321_10_alg».proof.Proof.Gen.Kernel
import proofs.«127707_g2000207145396142_pallasbulk_1321_10_alg».proof.Proof.Gen.Kernel.Skeleton
import proofs.«127707_g2000207145396142_pallasbulk_1321_10_alg».proof.Proof.Gen.Kernel.Launch
import proofs.«127707_g2000207145396142_pallasbulk_1321_10_alg».proof.Proof.Gen.Kernel.Points
import proofs.«127707_g2000207145396142_pallasbulk_1321_10_alg».proof.Proof.Gen.Kernel.Frame
import proofs.«127707_g2000207145396142_pallasbulk_1321_10_alg».proof.Proof.Gen.KernelIdeal
import proofs.«127707_g2000207145396142_pallasbulk_1321_10_alg».proof.Proof.Gen.KernelIdeal.Skeleton
import proofs.«127707_g2000207145396142_pallasbulk_1321_10_alg».proof.Proof.Gen.KernelIdeal.Launch
import proofs.«127707_g2000207145396142_pallasbulk_1321_10_alg».proof.Proof.Gen.KernelIdeal.Points
import proofs.«127707_g2000207145396142_pallasbulk_1321_10_alg».proof.Proof.Gen.KernelIdeal.Frame
import proofs.«127707_g2000207145396142_pallasbulk_1321_10_alg».proof.Proof.Gen.ReferenceIdeal
import proofs.«127707_g2000207145396142_pallasbulk_1321_10_alg».proof.Proof.Gen.ReferenceIdeal.Skeleton
import proofs.«127707_g2000207145396142_pallasbulk_1321_10_alg».proof.Proof.Gen.ReferenceIdeal.Launch
import proofs.«127707_g2000207145396142_pallasbulk_1321_10_alg».proof.Proof.Gen.ReferenceIdeal.Points
import proofs.«127707_g2000207145396142_pallasbulk_1321_10_alg».proof.Proof.Gen.ReferenceIdeal.Frame
import proofs.«127707_g2000207145396142_pallasbulk_1321_10_alg».proof.Proof.Gen.Pre_finite_inputs
import proofs.«127707_g2000207145396142_pallasbulk_1321_10_alg».proof.Proof.Gen.KernelIdeal.Value
import proofs.«127707_g2000207145396142_pallasbulk_1321_10_alg».proof.Proof.Gen.ReferenceIdeal.Value
import proofs.«127707_g2000207145396142_pallasbulk_1321_10_alg».proof.Proof.KernelValue
import proofs.«127707_g2000207145396142_pallasbulk_1321_10_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the five arguments both programs end with the result array at the perceptron of the
    arguments: the two arrays are one function of equal arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun r h c => ⟨(h c).1.trans ?_, (h c).2⟩)
    (Cert.ReferenceIdeal.Hand.run m' ρ')
  show Cert.Mlp.G _ _ _ _ _ = Cert.Mlp.G _ _ _ _ _
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
